-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S512x256 : Shape := ⟨2, ![512, 256]⟩
abbrev S2048x256 : Shape := ⟨2, ![2048, 256]⟩
abbrev S256x256 : Shape := ⟨2, ![256, 256]⟩
abbrev S50000 : Shape := ⟨1, ![50000]⟩
abbrev S320000 : Shape := ⟨1, ![320000]⟩
abbrev S64x16 : Shape := ⟨2, ![64, 16]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S2048x256 : S_.BroadcastsInDim S2048x256 (![] : Fin 0 → Fin S2048x256.rank)
  reducesTo_S2048x256_S_d0_1 : S2048x256.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S100000x256 .f32) (main_arg1 : FVec F S512x256 .f32) (main_arg2 : FVec F S2048x256 .f32) (main_arg3 : FVec F S256x256 .f32) (main_arg4 : FVec F S256x256 .f32) (main_arg5 : IVec S50000 32) (main_arg6 : IVec S320000 32) (main_arg7 : IVec S320000 32) (main_arg8 : IVec S320000 32) (main_arg9 : IVec S64x16 32) (main_arg10 : IVec S64x16 32) (main_arg11 : IVec S64 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S100000x256 : Shape := ⟨2, ![100000, 256]⟩
abbrev S512x256 : Shape := ⟨2, ![512, 256]⟩
abbrev S2048x256 : Shape := ⟨2, ![2048, 256]⟩
abbrev S256x256 : Shape := ⟨2, ![256, 256]⟩
abbrev S50000 : Shape := ⟨1, ![50000]⟩
abbrev S320000 : Shape := ⟨1, ![320000]⟩
abbrev S64x16 : Shape := ⟨2, ![64, 16]⟩
abbrev S64 : Shape := ⟨1, ![64]⟩
abbrev S_ : Shape := ⟨0, ![]⟩
abbrev S50000x1 : Shape := ⟨2, ![50000, 1]⟩
abbrev S50000x256 : Shape := ⟨2, ![50000, 256]⟩
abbrev S320000x1 : Shape := ⟨2, ![320000, 1]⟩
abbrev S320000x256 : Shape := ⟨2, ![320000, 256]⟩
abbrev S2000x256 : Shape := ⟨2, ![2000, 256]⟩
abbrev S64x16x1 : Shape := ⟨3, ![64, 16, 1]⟩
abbrev S64x16x256 : Shape := ⟨3, ![64, 16, 256]⟩
abbrev S64x16x512 : Shape := ⟨3, ![64, 16, 512]⟩
abbrev S16 : Shape := ⟨1, ![16]⟩
abbrev S1x16 : Shape := ⟨2, ![1, 16]⟩
abbrev S64x1 : Shape := ⟨2, ![64, 1]⟩

abbrev nBuf : Space → Nat
  | .hbm => 86
  | .vmem => 8
  | .smem => 0
  | _ => 0

abbrev bufTy : (tb : Table) → Fin (tcTables nBuf tb) → BufTy
  | .hbm, ⟨0, _⟩ => ⟨S100000x256, .f32⟩
  | .hbm, ⟨1, _⟩ => ⟨S512x256, .f32⟩
  | .hbm, ⟨2, _⟩ => ⟨S2048x256, .f32⟩
  | .hbm, ⟨3, _⟩ => ⟨S256x256, .f32⟩
  | .hbm, ⟨4, _⟩ => ⟨S256x256, .f32⟩
  | .hbm, ⟨5, _⟩ => ⟨S50000, .i32⟩
  | .hbm, ⟨6, _⟩ => ⟨S320000, .i32⟩
  | .hbm, ⟨7, _⟩ => ⟨S320000, .i32⟩
  | .hbm, ⟨8, _⟩ => ⟨S320000, .i32⟩
  | .hbm, ⟨9, _⟩ => ⟨S64x16, .i32⟩
  | .hbm, ⟨10, _⟩ => ⟨S64x16, .i32⟩
  | .hbm, ⟨11, _⟩ => ⟨S64, .i32⟩
  | .hbm, ⟨12, _⟩ => ⟨S_, .i32⟩
  | .hbm, ⟨13, _⟩ => ⟨S50000, .i32⟩
  | .hbm, ⟨14, _⟩ => ⟨S50000, .i1⟩
  | .hbm, ⟨15, _⟩ => ⟨S_, .i32⟩
  | .hbm, ⟨16, _⟩ => ⟨S50000, .i32⟩
  | .hbm, ⟨17, _⟩ => ⟨S50000, .i32⟩
  | .hbm, ⟨18, _⟩ => ⟨S50000, .i32⟩
  | .hbm, ⟨19, _⟩ => ⟨S50000x1, .i32⟩
  | .hbm, ⟨20, _⟩ => ⟨S50000x256, .f32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000x256, .f32⟩
  | .hbm, ⟨30, _⟩ => ⟨S_, .i32⟩
  | .hbm, ⟨31, _⟩ => ⟨S320000, .i32⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i32⟩
  | .hbm, ⟨36, _⟩ => ⟨S320000, .i32⟩
  | .hbm, ⟨37, _⟩ => ⟨S320000x1, .i32⟩
  | .hbm, ⟨38, _⟩ => ⟨S320000x256, .f32⟩
  | .hbm, ⟨39, _⟩ => ⟨S320000x256, .f32⟩
  | .hbm, ⟨40, _⟩ => ⟨S_, .f32⟩
  | .hbm, ⟨41, _⟩ => ⟨S50000x256, .f32⟩
  | .hbm, ⟨42, _⟩ => ⟨S320000x1, .i32⟩
  | .hbm, ⟨43, _⟩ => ⟨S50000x256, .f32⟩
  | .hbm, ⟨44, _⟩ => ⟨S_, .f32⟩
  | .hbm, ⟨45, _⟩ => ⟨S320000, .f32⟩
  | .hbm, ⟨46, _⟩ => ⟨S_, .f32⟩
  | .hbm, ⟨47, _⟩ => ⟨S50000, .f32⟩
  | .hbm, ⟨48, _⟩ => ⟨S320000x1, .i32⟩
  | .hbm, ⟨49, _⟩ => ⟨S50000, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S50000x1, .f32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S_, .i32⟩
  | .hbm, ⟨58, _⟩ => ⟨S64x16, .i32⟩
  | .hbm, ⟨59, _⟩ => ⟨S64x16, .i1⟩
  | .hbm, ⟨60, _⟩ => ⟨S_, .i32⟩
  | .hbm, ⟨61, _⟩ => ⟨S64x16, .i32⟩
  | .hbm, ⟨62, _⟩ => ⟨S64x16, .i32⟩
  | .hbm, ⟨63, _⟩ => ⟨S64x16, .i32⟩
  | .hbm, ⟨64, _⟩ => ⟨S64x16x1, .i32⟩
  | .hbm, ⟨65, _⟩ => ⟨S64x16x256, .f32⟩
  | .hbm, ⟨66, _⟩ => ⟨S_, .i32⟩
  | .hbm, ⟨67, _⟩ => ⟨S64x16, .i32⟩
  | .hbm, ⟨68, _⟩ => ⟨S64x16, .i1⟩
  | .hbm, ⟨69, _⟩ => ⟨S_, .i32⟩
  | .hbm, ⟨70, _⟩ => ⟨S64x16, .i32⟩
  | .hbm, ⟨71, _⟩ => ⟨S64x16, .i32⟩
  | .hbm, ⟨72, _⟩ => ⟨S64x16, .i32⟩
  | .hbm, ⟨73, _⟩ => ⟨S64x16x1, .i32⟩
  | .hbm, ⟨74, _⟩ => ⟨S64x16x256, .f32⟩
  | .hbm, ⟨75, _⟩ => ⟨S64x16x512, .f32⟩
  | .hbm, ⟨76, _⟩ => ⟨S16, .i32⟩
  | .hbm, ⟨77, _⟩ => ⟨S1x16, .i32⟩
  | .hbm, ⟨78, _⟩ => ⟨S64x1, .i32⟩
  | .hbm, ⟨79, _⟩ => ⟨S64x16, .i32⟩
  | .hbm, ⟨80, _⟩ => ⟨S64x16, .i32⟩
  | .hbm, ⟨81, _⟩ => ⟨S64x16, .i1⟩
  | .hbm, ⟨82, _⟩ => ⟨S64x16, .f32⟩
  | .hbm, ⟨83, _⟩ => ⟨S64x16x1, .f32⟩
  | .hbm, ⟨84, _⟩ => ⟨S64x16x512, .f32⟩
  | .hbm, ⟨85, _⟩ => ⟨S64x16x512, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S2000x256, .f32⟩
  | .local _ .vmem, ⟨7, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S64x16 : S_.BroadcastsInDim S64x16 (![] : Fin 0 → Fin S64x16.rank)
  bcast_S64x16_S64x16x1_0_1 : S64x16.BroadcastsInDim S64x16x1 (![0, 1] : Fin 2 → Fin S64x16x1.rank)
  concatenates_S64x16x256_S64x16x256_S64x16x512_d2 : Shape.Concatenates [S64x16x256, S64x16x256] S64x16x512 2
  bcast_S16_S1x16_1 : S16.BroadcastsInDim S1x16 (![1] : Fin 1 → Fin S1x16.rank)
  bcast_S64_S64x1_0 : S64.BroadcastsInDim S64x1 (![0] : Fin 1 → Fin S64x1.rank)
  bcast_S1x16_S64x16_0_1 : S1x16.BroadcastsInDim S64x16 (![0, 1] : Fin 2 → Fin S64x16.rank)
  bcast_S64x1_S64x16_0_1 : S64x1.BroadcastsInDim S64x16 (![0, 1] : Fin 2 → Fin S64x16.rank)
  bcast_S64x16x1_S64x16x512_0_1_2 : S64x16x1.BroadcastsInDim S64x16x512 (![0, 1, 2] : Fin 3 → Fin S64x16x512.rank)
  gather_S100000x256_S50000x1_S50000x256_1_0_n_n_0_1_1256_wf : GatherDims.WF S100000x256 S50000x1 S50000x256 [1] [0] [] [0] [] 1 ![1, 256]
  gather_S512x256_S320000x1_S320000x256_1_0_n_n_0_1_1256_wf : GatherDims.WF S512x256 S320000x1 S320000x256 [1] [0] [] [0] [] 1 ![1, 256]
  gather_S50000x256_S320000x1_S320000x256_1_0_n_n_0_1_1256_wf : GatherDims.WF S50000x256 S320000x1 S320000x256 [1] [0] [] [0] [] 1 ![1, 256]
  scatter_S50000x256_S320000x1_S320000x256_1_0_0_1_wf : ScatterDims.WF S50000x256 S320000x1 S320000x256 [1] [0] [0] 1
  scatter_S50000_S320000x1_S320000_n_0_0_1_wf : ScatterDims.WF S50000 S320000x1 S320000 [] [0] [0] 1
  dot_S2000x256_S256x256_S2000x256_1_0_0_1_n_n_wf : DotDims.WF S2000x256 S256x256 S2000x256 [1] [0] [0] [1] [] []
  gather_S50000x256_S64x16x1_S64x16x256_2_0_n_n_0_2_1256_wf : GatherDims.WF S50000x256 S64x16x1 S64x16x256 [2] [0] [] [0] [] 2 ![1, 256]
  gather_S2048x256_S64x16x1_S64x16x256_2_0_n_n_0_2_1256_wf : GatherDims.WF S2048x256 S64x16x1 S64x16x256 [2] [0] [] [0] [] 2 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)

variable [Facts₀]

def gather_S100000x256_S50000x1_S50000x256_1_0_n_n_0_1_1256 : GatherDims S100000x256 S50000x1 S50000x256 where
  offsetDims := [1]
  collapsedSliceDims := [0]
  operandBatchingDims := []
  startIndicesBatchingDims := []
  startIndexMap := [0]
  indexVectorDim := 1
  sliceSizes := ![1, 256]
  wf := gather_S100000x256_S50000x1_S50000x256_1_0_n_n_0_1_1256_wf
def gather_S512x256_S320000x1_S320000x256_1_0_n_n_0_1_1256 : GatherDims S512x256 S320000x1 S320000x256 where
  offsetDims := [1]
  collapsedSliceDims := [0]
  operandBatchingDims := []
  startIndicesBatchingDims := []
  startIndexMap := [0]
  indexVectorDim := 1
  sliceSizes := ![1, 256]
  wf := gather_S512x256_S320000x1_S320000x256_1_0_n_n_0_1_1256_wf
def gather_S50000x256_S320000x1_S320000x256_1_0_n_n_0_1_1256 : GatherDims S50000x256 S320000x1 S320000x256 where
  offsetDims := [1]
  collapsedSliceDims := [0]
  operandBatchingDims := []
  startIndicesBatchingDims := []
  startIndexMap := [0]
  indexVectorDim := 1
  sliceSizes := ![1, 256]
  wf := gather_S50000x256_S320000x1_S320000x256_1_0_n_n_0_1_1256_wf
def scatter_S50000x256_S320000x1_S320000x256_1_0_0_1 : ScatterDims S50000x256 S320000x1 S320000x256 where
  updateWindowDims := [1]
  insertedWindowDims := [0]
  scatterDimsToOperandDims := [0]
  indexVectorDim := 1
  wf := scatter_S50000x256_S320000x1_S320000x256_1_0_0_1_wf
def scatter_S50000_S320000x1_S320000_n_0_0_1 : ScatterDims S50000 S320000x1 S320000 where
  updateWindowDims := []
  insertedWindowDims := [0]
  scatterDimsToOperandDims := [0]
  indexVectorDim := 1
  wf := scatter_S50000_S320000x1_S320000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S64x16x1_S64x16x256_2_0_n_n_0_2_1256 : GatherDims S50000x256 S64x16x1 S64x16x256 where
  offsetDims := [2]
  collapsedSliceDims := [0]
  operandBatchingDims := []
  startIndicesBatchingDims := []
  startIndexMap := [0]
  indexVectorDim := 2
  sliceSizes := ![1, 256]
  wf := gather_S50000x256_S64x16x1_S64x16x256_2_0_n_n_0_2_1256_wf
def gather_S2048x256_S64x16x1_S64x16x256_2_0_n_n_0_2_1256 : GatherDims S2048x256 S64x16x1 S64x16x256 where
  offsetDims := [2]
  collapsedSliceDims := [0]
  operandBatchingDims := []
  startIndicesBatchingDims := []
  startIndexMap := [0]
  indexVectorDim := 2
  sliceSizes := ![1, 256]
  wf := gather_S2048x256_S64x16x1_S64x16x256_2_0_n_n_0_2_1256_wf

abbrev win0_0 : Pipeline.Window sig grid0 :=
  Pipeline.Window.ofSpec (Memref.whole main_v33) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x256 : Shape := ⟨2, ![100000, 256]⟩
abbrev S512x256 : Shape := ⟨2, ![512, 256]⟩
abbrev S2048x256 : Shape := ⟨2, ![2048, 256]⟩
abbrev S256x256 : Shape := ⟨2, ![256, 256]⟩
abbrev S50000 : Shape := ⟨1, ![50000]⟩
abbrev S320000 : Shape := ⟨1, ![320000]⟩
abbrev S64x16 : Shape := ⟨2, ![64, 16]⟩
abbrev S64 : Shape := ⟨1, ![64]⟩
abbrev S_ : Shape := ⟨0, ![]⟩
abbrev S50000x1 : Shape := ⟨2, ![50000, 1]⟩
abbrev S50000x256 : Shape := ⟨2, ![50000, 256]⟩
abbrev S320000x1 : Shape := ⟨2, ![320000, 1]⟩
abbrev S320000x256 : Shape := ⟨2, ![320000, 256]⟩
abbrev S64x16x1 : Shape := ⟨3, ![64, 16, 1]⟩
abbrev S64x16x256 : Shape := ⟨3, ![64, 16, 256]⟩
abbrev S64x16x512 : Shape := ⟨3, ![64, 16, 512]⟩
abbrev S16 : Shape := ⟨1, ![16]⟩
abbrev S1x16 : Shape := ⟨2, ![1, 16]⟩
abbrev S64x1 : Shape := ⟨2, ![64, 1]⟩

abbrev nBuf : Space → Nat
  | .hbm => 91
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S512x256, .f32⟩
  | .hbm, ⟨2, _⟩ => ⟨S2048x256, .f32⟩
  | .hbm, ⟨3, _⟩ => ⟨S256x256, .f32⟩
  | .hbm, ⟨4, _⟩ => ⟨S256x256, .f32⟩
  | .hbm, ⟨5, _⟩ => ⟨S50000, .i32⟩
  | .hbm, ⟨6, _⟩ => ⟨S320000, .i32⟩
  | .hbm, ⟨7, _⟩ => ⟨S320000, .i32⟩
  | .hbm, ⟨8, _⟩ => ⟨S320000, .i32⟩
  | .hbm, ⟨9, _⟩ => ⟨S64x16, .i32⟩
  | .hbm, ⟨10, _⟩ => ⟨S64x16, .i32⟩
  | .hbm, ⟨11, _⟩ => ⟨S64, .i32⟩
  | .hbm, ⟨12, _⟩ => ⟨S_, .i32⟩
  | .hbm, ⟨13, _⟩ => ⟨S50000, .i32⟩
  | .hbm, ⟨14, _⟩ => ⟨S50000, .i1⟩
  | .hbm, ⟨15, _⟩ => ⟨S_, .i32⟩
  | .hbm, ⟨16, _⟩ => ⟨S50000, .i32⟩
  | .hbm, ⟨17, _⟩ => ⟨S50000, .i32⟩
  | .hbm, ⟨18, _⟩ => ⟨S50000, .i32⟩
  | .hbm, ⟨19, _⟩ => ⟨S50000x1, .i32⟩
  | .hbm, ⟨20, _⟩ => ⟨S50000x256, .f32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000x256, .f32⟩
  | .hbm, ⟨30, _⟩ => ⟨S_, .i32⟩
  | .hbm, ⟨31, _⟩ => ⟨S320000, .i32⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i32⟩
  | .hbm, ⟨36, _⟩ => ⟨S320000, .i32⟩
  | .hbm, ⟨37, _⟩ => ⟨S320000x1, .i32⟩
  | .hbm, ⟨38, _⟩ => ⟨S320000x256, .f32⟩
  | .hbm, ⟨39, _⟩ => ⟨S320000x256, .f32⟩
  | .hbm, ⟨40, _⟩ => ⟨S_, .f32⟩
  | .hbm, ⟨41, _⟩ => ⟨S50000x256, .f32⟩
  | .hbm, ⟨42, _⟩ => ⟨S320000x1, .i32⟩
  | .hbm, ⟨43, _⟩ => ⟨S50000x256, .f32⟩
  | .hbm, ⟨44, _⟩ => ⟨S_, .f32⟩
  | .hbm, ⟨45, _⟩ => ⟨S320000, .f32⟩
  | .hbm, ⟨46, _⟩ => ⟨S_, .f32⟩
  | .hbm, ⟨47, _⟩ => ⟨S50000, .f32⟩
  | .hbm, ⟨48, _⟩ => ⟨S320000x1, .i32⟩
  | .hbm, ⟨49, _⟩ => ⟨S50000, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S50000x1, .f32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S50000x256, .f32⟩
  | .hbm, ⟨61, _⟩ => ⟨S50000x256, .f32⟩
  | .hbm, ⟨62, _⟩ => ⟨S_, .i32⟩
  | .hbm, ⟨63, _⟩ => ⟨S64x16, .i32⟩
  | .hbm, ⟨64, _⟩ => ⟨S64x16, .i1⟩
  | .hbm, ⟨65, _⟩ => ⟨S_, .i32⟩
  | .hbm, ⟨66, _⟩ => ⟨S64x16, .i32⟩
  | .hbm, ⟨67, _⟩ => ⟨S64x16, .i32⟩
  | .hbm, ⟨68, _⟩ => ⟨S64x16, .i32⟩
  | .hbm, ⟨69, _⟩ => ⟨S64x16x1, .i32⟩
  | .hbm, ⟨70, _⟩ => ⟨S64x16x256, .f32⟩
  | .hbm, ⟨71, _⟩ => ⟨S_, .i32⟩
  | .hbm, ⟨72, _⟩ => ⟨S64x16, .i32⟩
  | .hbm, ⟨73, _⟩ => ⟨S64x16, .i1⟩
  | .hbm, ⟨74, _⟩ => ⟨S_, .i32⟩
  | .hbm, ⟨75, _⟩ => ⟨S64x16, .i32⟩
  | .hbm, ⟨76, _⟩ => ⟨S64x16, .i32⟩
  | .hbm, ⟨77, _⟩ => ⟨S64x16, .i32⟩
  | .hbm, ⟨78, _⟩ => ⟨S64x16x1, .i32⟩
  | .hbm, ⟨79, _⟩ => ⟨S64x16x256, .f32⟩
  | .hbm, ⟨80, _⟩ => ⟨S64x16x512, .f32⟩
  | .hbm, ⟨81, _⟩ => ⟨S16, .i32⟩
  | .hbm, ⟨82, _⟩ => ⟨S1x16, .i32⟩
  | .hbm, ⟨83, _⟩ => ⟨S64x1, .i32⟩
  | .hbm, ⟨84, _⟩ => ⟨S64x16, .i32⟩
  | .hbm, ⟨85, _⟩ => ⟨S64x16, .i32⟩
  | .hbm, ⟨86, _⟩ => ⟨S64x16, .i1⟩
  | .hbm, ⟨87, _⟩ => ⟨S64x16, .f32⟩
  | .hbm, ⟨88, _⟩ => ⟨S64x16x1, .f32⟩
  | .hbm, ⟨89, _⟩ => ⟨S64x16x512, .f32⟩
  | .hbm, ⟨90, _⟩ => ⟨S64x16x512, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call0_cst : Ref sig .tc := ⟨.hbm, 59, rfl⟩
abbrev main_call0_v0 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S_S64x16 : S_.BroadcastsInDim S64x16 (![] : Fin 0 → Fin S64x16.rank)
  bcast_S64x16_S64x16x1_0_1 : S64x16.BroadcastsInDim S64x16x1 (![0, 1] : Fin 2 → Fin S64x16x1.rank)
  concatenates_S64x16x256_S64x16x256_S64x16x512_d2 : Shape.Concatenates [S64x16x256, S64x16x256] S64x16x512 2
  bcast_S16_S1x16_1 : S16.BroadcastsInDim S1x16 (![1] : Fin 1 → Fin S1x16.rank)
  bcast_S64_S64x1_0 : S64.BroadcastsInDim S64x1 (![0] : Fin 1 → Fin S64x1.rank)
  bcast_S1x16_S64x16_0_1 : S1x16.BroadcastsInDim S64x16 (![0, 1] : Fin 2 → Fin S64x16.rank)
  bcast_S64x1_S64x16_0_1 : S64x1.BroadcastsInDim S64x16 (![0, 1] : Fin 2 → Fin S64x16.rank)
  bcast_S64x16x1_S64x16x512_0_1_2 : S64x16x1.BroadcastsInDim S64x16x512 (![0, 1, 2] : Fin 3 → Fin S64x16x512.rank)
  gather_S100000x256_S50000x1_S50000x256_1_0_n_n_0_1_1256_wf : GatherDims.WF S100000x256 S50000x1 S50000x256 [1] [0] [] [0] [] 1 ![1, 256]
  gather_S512x256_S320000x1_S320000x256_1_0_n_n_0_1_1256_wf : GatherDims.WF S512x256 S320000x1 S320000x256 [1] [0] [] [0] [] 1 ![1, 256]
  gather_S50000x256_S320000x1_S320000x256_1_0_n_n_0_1_1256_wf : GatherDims.WF S50000x256 S320000x1 S320000x256 [1] [0] [] [0] [] 1 ![1, 256]
  scatter_S50000x256_S320000x1_S320000x256_1_0_0_1_wf : ScatterDims.WF S50000x256 S320000x1 S320000x256 [1] [0] [0] 1
  scatter_S50000_S320000x1_S320000_n_0_0_1_wf : ScatterDims.WF S50000 S320000x1 S320000 [] [0] [0] 1
  dot_S50000x256_S256x256_S50000x256_1_0_0_1_n_n_wf : DotDims.WF S50000x256 S256x256 S50000x256 [1] [0] [0] [1] [] []
  gather_S50000x256_S64x16x1_S64x16x256_2_0_n_n_0_2_1256_wf : GatherDims.WF S50000x256 S64x16x1 S64x16x256 [2] [0] [] [0] [] 2 ![1, 256]
  gather_S2048x256_S64x16x1_S64x16x256_2_0_n_n_0_2_1256_wf : GatherDims.WF S2048x256 S64x16x1 S64x16x256 [2] [0] [] [0] [] 2 ![1, 256]

variable [Facts₀]

def gather_S100000x256_S50000x1_S50000x256_1_0_n_n_0_1_1256 : GatherDims S100000x256 S50000x1 S50000x256 where
  offsetDims := [1]
  collapsedSliceDims := [0]
  operandBatchingDims := []
  startIndicesBatchingDims := []
  startIndexMap := [0]
  indexVectorDim := 1
  sliceSizes := ![1, 256]
  wf := gather_S100000x256_S50000x1_S50000x256_1_0_n_n_0_1_1256_wf
def gather_S512x256_S320000x1_S320000x256_1_0_n_n_0_1_1256 : GatherDims S512x256 S320000x1 S320000x256 where
  offsetDims := [1]
  collapsedSliceDims := [0]
  operandBatchingDims := []
  startIndicesBatchingDims := []
  startIndexMap := [0]
  indexVectorDim := 1
  sliceSizes := ![1, 256]
  wf := gather_S512x256_S320000x1_S320000x256_1_0_n_n_0_1_1256_wf
def gather_S50000x256_S320000x1_S320000x256_1_0_n_n_0_1_1256 : GatherDims S50000x256 S320000x1 S320000x256 where
  offsetDims := [1]
  collapsedSliceDims := [0]
  operandBatchingDims := []
  startIndicesBatchingDims := []
  startIndexMap := [0]
  indexVectorDim := 1
  sliceSizes := ![1, 256]
  wf := gather_S50000x256_S320000x1_S320000x256_1_0_n_n_0_1_1256_wf
def scatter_S50000x256_S320000x1_S320000x256_1_0_0_1 : ScatterDims S50000x256 S320000x1 S320000x256 where
  updateWindowDims := [1]
  insertedWindowDims := [0]
  scatterDimsToOperandDims := [0]
  indexVectorDim := 1
  wf := scatter_S50000x256_S320000x1_S320000x256_1_0_0_1_wf
def scatter_S50000_S320000x1_S320000_n_0_0_1 : ScatterDims S50000 S320000x1 S320000 where
  updateWindowDims := []
  insertedWindowDims := [0]
  scatterDimsToOperandDims := [0]
  indexVectorDim := 1
  wf := scatter_S50000_S320000x1_S320000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S64x16x1_S64x16x256_2_0_n_n_0_2_1256 : GatherDims S50000x256 S64x16x1 S64x16x256 where
  offsetDims := [2]
  collapsedSliceDims := [0]
  operandBatchingDims := []
  startIndicesBatchingDims := []
  startIndexMap := [0]
  indexVectorDim := 2
  sliceSizes := ![1, 256]
  wf := gather_S50000x256_S64x16x1_S64x16x256_2_0_n_n_0_2_1256_wf
def gather_S2048x256_S64x16x1_S64x16x256_2_0_n_n_0_2_1256 : GatherDims S2048x256 S64x16x1 S64x16x256 where
  offsetDims := [2]
  collapsedSliceDims := [0]
  operandBatchingDims := []
  startIndicesBatchingDims := []
  startIndexMap := [0]
  indexVectorDim := 2
  sliceSizes := ![1, 256]
  wf := gather_S2048x256_S64x16x1_S64x16x256_2_0_n_n_0_2_1256_wf

class Facts : Prop extends Facts₀ where

variable [Facts]
-- ==== Proof.KernelEntry.lean ====
/-
  What the kernel's region finds in its two computed operands.

  Before the region the kernel's host lines compute, exactly as the reference's do, the node states H (rows of the
  entity table picked by node id) and the mean-aggregated messages A (scatter-add of H[src] + R[rel] at the edges'
  destinations, divided by the clamped in-degree).  The two programs spell these lines identically, so the arrays the
  region's first two windows stage are the reference's own stage functions of the same arguments.
-/
import proofs.«181477_j33526514713101_1_alg».proof.Proof.Gen.KernelIdeal.Frame
import proofs.«181477_j33526514713101_1_alg».proof.Proof.Gen.ReferenceIdeal.Read
import Idealize.ShloMosaic.Lib.StableHlo.Run

set_option maxRecDepth 16384

noncomputable section

namespace Cert.KernelIdeal.Layered

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The node states H of the arguments in the kernel's memory. -/
abbrev statesOf (c : Dev nD) : (⟨S50000x256, .f32⟩ : BufTy).Contents (Elt Ideal) :=
  Cert.ReferenceIdeal.Read.val_main_v6 (F := Ideal) (m ((c : Thread nD τ).loc main_arg0)) (m ((c : Thread nD τ).loc main_arg5))

/-- The mean-aggregated messages A of the arguments in the kernel's memory. -/
abbrev messagesOf (c : Dev nD) : (⟨S50000x256, .f32⟩ : BufTy).Contents (Elt Ideal) :=
  Cert.ReferenceIdeal.Read.val_main_v33 (F := Ideal) (m ((c : Thread nD τ).loc main_arg0)) (m ((c : Thread nD τ).loc main_arg1))
    (m ((c : Thread nD τ).loc main_arg5)) (m ((c : Thread nD τ).loc main_arg6)) (m ((c : Thread nD τ).loc main_arg7))
    (m ((c : Thread nD τ).loc main_arg8))

set_option maxHeartbeats 4000000 in
/-- The region's second window stages the node states. -/
theorem V_states (c : Dev nD) : (V m c main_v6 : (⟨S50000x256, .f32⟩ : BufTy).Contents (Elt Ideal)) = statesOf m c := by
  show StableHlo.after hostOps0 (fun b => m (c, b)) (Proc.devRef .tc main_v6) = _
  after_results
  rfl

set_option maxHeartbeats 16000000 in
/-- The region's first window stages the aggregated messages. -/
theorem V_messages (c : Dev nD) : (V m c main_v33 : (⟨S50000x256, .f32⟩ : BufTy).Contents (Elt Ideal)) = messagesOf m c := by
  show StableHlo.after hostOps0 (fun b => m (c, b)) (Proc.devRef .tc main_v33) = _
  after_results
  rfl

end Cert.KernelIdeal.Layered

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.LibHostDot.lean ====
/-
  A host matrix product read at one entry.

  The host's `dot_general` of an M × K matrix with a K × N matrix — left contracting axis 1, right contracting axis 0, no
  batch axis: the plain product l · r — is at the ideal values the sum over the contraction coordinate k of
  l (i, k) · r (k, j): entry (i, j) is the dot product of row i of the left operand with column j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.HostDot

open Idealize.ShloMosaic Idealize.ShloMosaic.ValueIdx

/-- Entry (i, j) of an M × K by K × N host `dot_general` contracting the left operand's columns with the right
    operand's rows, at the ideal values: the dot product of the left operand's row i with the right operand's column j. -/
theorem dotGeneral_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    Host.dotGeneral D prec l r (ix2 i j) = ∑ k : Fin K, l (ix2 i k) * r (ix2 k j) := by
  obtain ⟨lc, rc, ln, rn, lb, rb, wf⟩ := D
  dsimp only at hlc hrc hln hrn hlb hrb
  subst hlc hrc hln hrn hlb hrb
  refine (Ideal.dotGeneral_apply _ prec .single l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.HostDot

end
-- ==== Proof.LayerEntry.lean ====
/-
  One dense layer of a relational graph convolution, read at one entry.

  The layer takes an aggregated-message matrix A and a node-state matrix H (both rows × K) and two weight matrices
  Wm, Ws (K × N), and returns relu (A · Wm + H · Ws).  Two spellings of it are compared here, both at the ideal
  values (extended reals, every operation exact, a change of float format the identity):

  * the row-blocked one: a block of rows of A and of H is cast to a narrower float format (the identity), multiplied
    on the matrix unit into a zero accumulator, the two products added and clamped below at zero;
  * the whole-array one: the host's two `dot_general`s, their sum, and the maximum with a broadcast zero.

  Entry (p, q) of the block result and entry (i, q) of the whole result are both
      max (Σ_k A(·,k)·Wm(k,q) + Σ_k H(·,k)·Ws(k,q)) 0,
  so they agree as soon as row p of the block is row i of the whole matrix.  No finiteness is needed: each side is
  the same sum of the same products, term by term.
-/
import proofs.«181477_j33526514713101_1_alg».proof.Proof.LibPlainMatmul
import proofs.«181477_j33526514713101_1_alg».proof.Proof.LibHostDot
import Idealize.ShloMosaic.Lib.Pipeline.Value

noncomputable section

open scoped BigOperators

namespace Cert.GraphLayer

open Idealize.ShloMosaic Idealize.ShloMosaic.ValueIdx

/-- The value both spellings have at an entry: the two dot products of a row of A and a row of H with a column of
    each weight matrix, added, clamped below at the zero word's value. -/
def entry {R K N : Nat} (A H : FVec Ideal ⟨2, ![R, K]⟩ .f32) (Wm Ws : FVec Ideal ⟨2, ![K, N]⟩ .f32)
    (i : Fin R) (q : Fin N) : Ideal .f32 :=
  max ((∑ k : Fin K, A (ix2 i k) * Wm (ix2 k q)) + ∑ k : Fin K, H (ix2 i k) * Ws (ix2 k q))
    (Ideal.ofBits .f32 0x00000000#32)

/-- The row-blocked spelling at entry (p, q) of a block: format changes and the same-shape cast are the identity at
    the ideal values, each matrix-unit product into the zero accumulator is the textbook sum. -/
theorem blocked_apply {M K N : Nat}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (hsc : (⟨2, ![M, K]⟩ : Shape).ShapeCasts ⟨2, ![M, K]⟩) (hb : FTy.bits .bf16 < FTy.bits .f32)
    (xa xh : FVec Ideal ⟨2, ![M, K]⟩ .f32) (wm ws : FVec Ideal ⟨2, ![K, N]⟩ .f32) (p : Fin M) (q : Fin N) :
    maximumf
        (addf
          (matmul D none (truncf .bf16 (shapeCast ⟨2, ![M, K]⟩ xa hsc) hb) (truncf .bf16 wm hb)
            (constant ⟨2, ![M, N]⟩ .f32 0x00000000#32))
          (matmul D none (truncf .bf16 (shapeCast ⟨2, ![M, K]⟩ xh hsc) hb) (truncf .bf16 ws hb)
            (constant ⟨2, ![M, N]⟩ .f32 0x00000000#32)))
        (broadcast ⟨2, ![M, N]⟩ (Scalar.ofBits (F := Ideal) .f32 0x00000000#32)) (ix2 p q)
      = entry xa xh wm ws p q := by
  rw [maximumf_apply, addf_apply,
    PlainMatmul.matmul_zero_apply D hlc hrc hln hrn hlb hrb, PlainMatmul.matmul_zero_apply D hlc hrc hln hrn hlb hrb,
    shapeCast_self, shapeCast_self]
  rfl

/-- The whole-array spelling at entry (i, q): each host product is the textbook sum, the broadcast scalar zero reads
    the zero word's value everywhere. -/
theorem whole_apply {R K N : Nat}
    (D : DotDims ⟨2, ![R, K]⟩ ⟨2, ![K, N]⟩ ⟨2, ![R, N]⟩)
    (hlc : D.lhsContracting = [1]) (hrc : D.rhsContracting = [0]) (hln : D.lhsNonContracting = [0])
    (hrn : D.rhsNonContracting = [1]) (hlb : D.lhsBatch = []) (hrb : D.rhsBatch = [])
    (hbc : (⟨0, ![]⟩ : Shape).BroadcastsInDim ⟨2, ![R, N]⟩ (![] : Fin 0 → Fin 2))
    (A H : FVec Ideal ⟨2, ![R, K]⟩ .f32) (Wm Ws : FVec Ideal ⟨2, ![K, N]⟩ .f32) (i : Fin R) (q : Fin N) :
    maximumf
        (addf (Host.dotGeneral D none A Wm) (Host.dotGeneral D none H Ws))
        (broadcastInDim ⟨2, ![R, N]⟩ ![] hbc (constant (F := Ideal) ⟨0, ![]⟩ .f32 0x00000000#32)) (ix2 i q)
      = entry A H Wm Ws i q := by
  rw [maximumf_apply, addf_apply,
    HostDot.dotGeneral_apply D hlc hrc hln hrn hlb hrb, HostDot.dotGeneral_apply D hlc hrc hln hrn hlb hrb,
    broadcastInDim_apply _ hbc _ (ix2 i q) ix0 (fun a => a.elim0)]
  rfl

/-- The common value depends only on the row of A, the row of H and the column of each weight matrix it reads: two
    sets of operands that agree there give the same value (the sums range over the same products). -/
theorem entry_congr {M R K N : Nat} (xa xh : FVec Ideal ⟨2, ![M, K]⟩ .f32) (wm ws : FVec Ideal ⟨2, ![K, N]⟩ .f32)
    (A H : FVec Ideal ⟨2, ![R, K]⟩ .f32) (Wm Ws : FVec Ideal ⟨2, ![K, N]⟩ .f32) (p : Fin M) (i : Fin R) (q : Fin N)
    (ha : ∀ k : Fin K, xa (ix2 p k) = A (ix2 i k)) (hh : ∀ k : Fin K, xh (ix2 p k) = H (ix2 i k))
    (hm : ∀ k : Fin K, wm (ix2 k q) = Wm (ix2 k q)) (hs : ∀ k : Fin K, ws (ix2 k q) = Ws (ix2 k q)) :
    entry xa xh wm ws p q = entry A H Wm Ws i q := by
  unfold entry
  simp only [ha, hh, hm, hs]

end Cert.GraphLayer

end
-- ==== Proof.RefLayer.lean ====
/-
  The reference program, cut at its dense layer.

  The reference computes, on the host: the node states H (rows of the entity table picked by node id), the
  mean-aggregated messages A (a scatter-add of H[src] + R[rel] over the edges' destinations, divided by the clamped
  in-degree), the layer relu (A · Wm + H · Ws), and from it the read-out: rows of the layer's result picked by the
  target ids, joined with rows of the global table and zeroed past each sample's length.

  Two facts are recorded.  (1) The final result is the read-out applied to the layer's result, the read-out being ONE
  function of that result and of the four arguments it reads besides — so a program that produces the same layer
  result by other means and then runs the same read-out has the same final result.  (2) The layer's result at entry
  (i, q) is max (Σ_k A(i,k)·Wm(k,q) + Σ_k H(i,k)·Ws(k,q)) 0.
-/
import proofs.«181477_j33526514713101_1_alg».proof.Proof.Gen.ReferenceIdeal.Read
import proofs.«181477_j33526514713101_1_alg».proof.Proof.LayerEntry

noncomputable section

namespace Cert.ReferenceIdeal.Layered

open Cert.ReferenceIdeal Cert.ReferenceIdeal.Gen Cert.ReferenceIdeal.Read Idealize.ShloMosaic Idealize.ShloMosaic.ValueIdx

variable {F : FTy → Type} [FloatOps F]

/-- The host lines after the layer as one function of the layer's result `Hn`: gather its rows at the target ids,
    join them with the gathered rows of the global table along the last axis, multiply by the length mask. -/
def readout (Hn : (⟨S50000x256, .f32⟩ : BufTy).Contents (Elt F)) (x2 : (⟨S2048x256, .f32⟩ : BufTy).Contents (Elt F))
    (x9 x10 : (⟨S64x16, .i32⟩ : BufTy).Contents (Elt F)) (x11 : (⟨S64, .i32⟩ : BufTy).Contents (Elt F)) :
    (⟨S64x16x512, .f32⟩ : BufTy).Contents (Elt F) :=
  mulf
    (concatenate S64x16x512 2
      [⟨S64x16x256, Host.gather gather_S50000x256_S64x16x1_S64x16x256_2_0_n_n_0_2_1256 Hn (val_main_v43 (F := F) x9)⟩,
       ⟨S64x16x256, val_main_v51 (F := F) x2 x10⟩]
      concatenates_S64x16x256_S64x16x256_S64x16x512_d2)
    (val_main_v61 (F := F) x11)

/-- The reference's result is the read-out of its layer's result. -/
theorem result_eq_readout (x0 : (⟨S100000x256, .f32⟩ : BufTy).Contents (Elt F)) (x1 : (⟨S512x256, .f32⟩ : BufTy).Contents (Elt F))
    (x2 : (⟨S2048x256, .f32⟩ : BufTy).Contents (Elt F)) (x3 x4 : (⟨S256x256, .f32⟩ : BufTy).Contents (Elt F))
    (x5 : (⟨S50000, .i32⟩ : BufTy).Contents (Elt F)) (x6 x7 x8 : (⟨S320000, .i32⟩ : BufTy).Contents (Elt F))
    (x9 x10 : (⟨S64x16, .i32⟩ : BufTy).Contents (Elt F)) (x11 : (⟨S64, .i32⟩ : BufTy).Contents (Elt F)) :
    val_main_v62 (F := F) x0 x1 x2 x3 x4 x5 x6 x7 x8 x9 x10 x11
      = readout (val_main_v37 (F := F) x0 x1 x3 x4 x5 x6 x7 x8) x2 x9 x10 x11 := rfl

/-- The reference's layer at entry (i, q): the dot products of row i of the aggregated messages and of row i of the
    node states with column q of the two weight matrices, added and clamped below at zero. -/
theorem layer_apply (x0 : (⟨S100000x256, .f32⟩ : BufTy).Contents (Elt Ideal)) (x1 : (⟨S512x256, .f32⟩ : BufTy).Contents (Elt Ideal))
    (x3 x4 : (⟨S256x256, .f32⟩ : BufTy).Contents (Elt Ideal))
    (x5 : (⟨S50000, .i32⟩ : BufTy).Contents (Elt Ideal)) (x6 x7 x8 : (⟨S320000, .i32⟩ : BufTy).Contents (Elt Ideal))
    (i : Fin 50000) (q : Fin 256) :
    val_main_v37 (F := Ideal) x0 x1 x3 x4 x5 x6 x7 x8 (ix2 i q)
      = Cert.GraphLayer.entry (val_main_v33 (F := Ideal) x0 x1 x5 x6 x7 x8) (val_main_v6 (F := Ideal) x0 x5) x3 x4 i q :=
  Cert.GraphLayer.whole_apply dot_S50000x256_S256x256_S50000x256_1_0_0_1_n_n rfl rfl rfl rfl rfl rfl bcast_S_S50000x256
    (val_main_v33 (F := Ideal) x0 x1 x5 x6 x7 x8) (val_main_v6 (F := Ideal) x0 x5) x3 x4 i q

end Cert.ReferenceIdeal.Layered

end
-- ==== Proof.KernelLayer.lean ====
/-
  The kernel's region computes the reference's dense layer.

  The region walks 25 grid points; at point t it stages rows 2000·t … 2000·t + 1999 of the aggregated messages A and
  of the node states H, the two 256 × 256 weight matrices whole, and writes back rows 2000·t … 2000·t + 1999 of its
  result: relu (A_block · Wm + H_block · Ws).  Entry (p, q) of that block is
      max (Σ_k A(2000·t + p, k)·Wm(k, q) + Σ_k H(2000·t + p, k)·Ws(k, q)) 0,
  which is entry (2000·t + p, q) of the reference's layer relu (A · Wm + H · Ws).  The 25 blocks tile the 50000 rows
  (row r lies in block r / 2000), so after the region the result array IS the reference's layer of the same arguments.
-/
import proofs.«181477_j33526514713101_1_alg».proof.Proof.KernelEntry
import proofs.«181477_j33526514713101_1_alg».proof.Proof.RefLayer
import Idealize.ShloMosaic.Lib.Pipeline.Value

set_option maxRecDepth 16384

noncomputable section

namespace Cert.KernelIdeal.Layered

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The reference's layer of the arguments in the kernel's memory. -/
abbrev layerOf (c : Dev nD) : (⟨S50000x256, .f32⟩ : BufTy).Contents (Elt Ideal) :=
  Cert.ReferenceIdeal.Read.val_main_v37 (F := Ideal) (m ((c : Thread nD τ).loc main_arg0)) (m ((c : Thread nD τ).loc main_arg1))
    (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

theorem zero_offsets : (![0, 0] : Fin 2 → Nat) = fun _ => 0 := funext fun a => by fin_cases a <;> rfl

/-- The body's stored value at entry (p, q) of a block, from the four loaded blocks. -/
theorem stored_apply (x0 x1 : Vec Ideal S2000x256 .f32) (x2 x3 : Vec Ideal S256x256 .f32) (p : Fin 2000) (q : Fin 256) :
    k0_pay1 (F := Ideal) x0 x1 x2 x3 (ix2 p q) = Cert.GraphLayer.entry x0 x1 x2 x3 p q :=
  Cert.GraphLayer.blocked_apply dot_S2000x256_S256x256_S2000x256_1_0_0_1_n_n rfl rfl rfl rfl rfl rfl
    Facts₀.shapeCasts_S2000x256_S2000x256 Facts₀.bitsLt_bf16_f32 x0 x1 x2 x3 p q

/-- The printed index maps over the grid: the two row-blocked inputs and the output sit at block row t, column 0; the
    weights at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the messages block at point t is row 2000·t + p of the aggregated messages. -/
theorem messages_block (c : Dev nD) (t : Fin cfg0.N) (p : Fin 2000) (k : Fin 256) (i : Fin 50000)
    (hi : i.val = t.val * 2000 + p.val) :
    (iblk m c 0 t : Vec Ideal S2000x256 .f32) (ix2 p k) = messagesOf m c (ix2 i k) := by
  obtain ⟨e0, e1, -⟩ := block_indices t
  unfold iblk
  rw [View.read_apply]
  show V m c main_v33 _ = _
  rw [V_messages]
  congr 1
  funext a
  apply Fin.ext
  match a with
  | ⟨0, _⟩ => show win0_0.index t 0 * 2000 + 1 * p.val = i.val; rw [e0, hi]; omega
  | ⟨1, _⟩ => show win0_0.index t 1 * 256 + 1 * k.val = k.val; rw [e1]; omega

/-- Row p of the states block at point t is row 2000·t + p of the node states. -/
theorem states_block (c : Dev nD) (t : Fin cfg0.N) (p : Fin 2000) (k : Fin 256) (i : Fin 50000)
    (hi : i.val = t.val * 2000 + p.val) :
    (iblk m c 1 t : Vec Ideal S2000x256 .f32) (ix2 p k) = statesOf m c (ix2 i k) := by
  obtain ⟨-, -, e2, e3, -⟩ := block_indices t
  unfold iblk
  rw [View.read_apply]
  show V m c main_v6 _ = _
  rw [V_states]
  congr 1
  funext a
  apply Fin.ext
  match a with
  | ⟨0, _⟩ => show win0_1.index t 0 * 2000 + 1 * p.val = i.val; rw [e2, hi]; omega
  | ⟨1, _⟩ => show win0_1.index t 1 * 256 + 1 * k.val = k.val; rw [e3]; omega

/-- The message weights are staged whole at every point. -/
theorem wmsg_block (c : Dev nD) (t : Fin cfg0.N) (k q : Fin 256) :
    (iblk m c 2 t : Vec Ideal S256x256 .f32) (ix2 k q) = (m ((c : Thread nD τ).loc main_arg3) : S256x256.Idx → Ideal .f32) (ix2 k q) := by
  obtain ⟨-, -, -, -, e4, e5, -⟩ := block_indices t
  unfold iblk
  rw [View.read_apply]
  show V m c main_arg3 _ = _
  rw [V_main_arg3]
  congr 1
  funext a
  apply Fin.ext
  match a with
  | ⟨0, _⟩ => show win0_2.index t 0 * 256 + 1 * k.val = k.val; rw [e4]; omega
  | ⟨1, _⟩ => show win0_2.index t 1 * 256 + 1 * q.val = q.val; rw [e5]; omega

/-- The self weights are staged whole at every point. -/
theorem wself_block (c : Dev nD) (t : Fin cfg0.N) (k q : Fin 256) :
    (iblk m c 3 t : Vec Ideal S256x256 .f32) (ix2 k q) = (m ((c : Thread nD τ).loc main_arg4) : S256x256.Idx → Ideal .f32) (ix2 k q) := by
  obtain ⟨-, -, -, -, -, -, e6, e7, -⟩ := block_indices t
  unfold iblk
  rw [View.read_apply]
  show V m c main_arg4 _ = _
  rw [V_main_arg4]
  congr 1
  funext a
  apply Fin.ext
  match a with
  | ⟨0, _⟩ => show win0_3.index t 0 * 256 + 1 * k.val = k.val; rw [e6]; omega
  | ⟨1, _⟩ => show win0_3.index t 1 * 256 + 1 * q.val = q.val; rw [e7]; omega

/-- What point t writes back is block t of the reference's layer. -/
theorem flushed_eq (c : Dev nD) (t : Fin cfg0.N) :
    (dats m 0 c).flushed 4 t = ((cfg0.win 4).blk t).view.read (Elt Ideal) (layerOf m c) := by
  show (cfg0.win 4).cut (grid0.coords t) ((dats m 0 c).after 4 t) = _
  rw [after0_4]
  unfold out0_4
  rw [View.canon_unit_zero zero_offsets]
  simp only [View.ld_unit_zero (S := S2000x256) zero_offsets, View.ld_unit_zero (S := S256x256) zero_offsets]
  funext j
  obtain ⟨p, q, rfl⟩ : ∃ (p : Fin 2000) (q : Fin 256), j = ix2 p q := ⟨j 0, j 1, eq_ix2 j⟩
  have ht : t.val < 25 := lt_of_lt_of_eq t.isLt (N_0 : cfg0.N = 25)
  obtain ⟨-, -, -, -, -, -, -, -, e8, e9⟩ := block_indices t
  have hemb : ((cfg0.win 4).blk t).view.emb (ix2 p q)
      = ix2 (⟨t.val * 2000 + p.val, by have := p.isLt; omega⟩ : Fin 50000) q := by
    funext a
    apply Fin.ext
    match a with
    | ⟨0, _⟩ => show win0_4.index t 0 * 2000 + 1 * p.val = t.val * 2000 + p.val; rw [e8]; omega
    | ⟨1, _⟩ => show win0_4.index t 1 * 256 + 1 * q.val = q.val; rw [e9]; omega
  show k0_pay1 (iblk m c 0 t) (iblk m c 1 t) (iblk m c 2 t) (iblk m c 3 t) (ix2 p q)
      = layerOf m c (((cfg0.win 4).blk t).view.emb (ix2 p q))
  rw [hemb]
  refine (stored_apply (iblk m c 0 t) (iblk m c 1 t) (iblk m c 2 t) (iblk m c 3 t) p q).trans ?_
  refine Eq.trans ?_ (Cert.ReferenceIdeal.Layered.layer_apply _ _ _ _ _ _ _ _ _ q).symm
  exact Cert.GraphLayer.entry_congr _ _ _ _ _ _ _ _ p _ q
    (fun k => messages_block m c t p k _ rfl) (fun k => states_block m c t p k _ rfl)
    (fun k => wmsg_block m c t k q) (fun k => wself_block m c t k q)

/-- An index of the result array is in point t's block iff each coordinate is in the block's range on its axis. -/
theorem mem_block (t : Fin cfg0.N) (i : S50000x256.Idx) :
    i ∈ ((cfg0.win 4).blk t).view.set ↔ ∀ a : Fin 2, win0_4.index t a * S2000x256.size a ≤ (i a).val
      ∧ (i a).val < win0_4.index t a * S2000x256.size a + S2000x256.size a := by
  show i ∈ ((View.whole main_v34).slice (win0_4.rect t)).set ↔ _
  rw [View.set_slice_whole, Rect.mem_set_unit]
  exact Iff.rfl

/-- Every row of the result array is written back by some point: row r by point r / 2000. -/
theorem blocks_cover (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_4 _, ?_⟩
  rw [mem_block]
  obtain ⟨-, -, -, -, -, -, -, -, e8, e9⟩ := block_indices ⟨(i 0).val / 2000, by rw [hN]; omega⟩
  intro a
  match a with
  | ⟨0, _⟩ =>
    show win0_4.index _ 0 * 2000 ≤ (i 0).val ∧ (i 0).val < win0_4.index _ 0 * 2000 + 2000
    rw [e8]
    show (i 0).val / 2000 * 2000 ≤ (i 0).val ∧ (i 0).val < (i 0).val / 2000 * 2000 + 2000
    omega
  | ⟨1, _⟩ =>
    show win0_4.index _ 1 * 256 ≤ (i 1).val ∧ (i 1).val < win0_4.index _ 1 * 256 + 256
    rw [e9]
    omega

/-- After the region its result array is the reference's layer of the arguments. -/
theorem layer_final (c : Dev nD) : (dats m 0 c).arrAt 4 cfg0.N = layerOf m c :=
  (dats m 0 c).arrAt_eq_of_cover 4 (layerOf m c) (fun t _ => flushed_eq m c t) blocks_cover

end Cert.KernelIdeal.Layered

end
-- ==== Proof.KernelReadout.lean ====
/-
  The kernel's host lines after the region are the reference's read-out.

  After the region the kernel gathers rows of the region's result at the target ids, joins them with the gathered rows
  of the global table along the last axis and multiplies by the length mask — line for line what the reference does
  to its own layer result.  So whatever array L the region leaves, the kernel's final result is the reference's
  read-out of L and of the four arguments the read-out reads (the global table, the target ids, the global ids, the
  lengths), none of which the region touches.
-/
import proofs.«181477_j33526514713101_1_alg».proof.Proof.Gen.KernelIdeal.Frame
import proofs.«181477_j33526514713101_1_alg».proof.Proof.RefLayer
import Idealize.ShloMosaic.Lib.StableHlo.Run

set_option maxRecDepth 16384

noncomputable section

namespace Cert.KernelIdeal.Layered

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 8000000 in
/-- The result buffer after the host tail, given the array `L` the region leaves in its output. -/
theorem tail_result (c : Dev nD) (L : (⟨S50000x256, .f32⟩ : BufTy).Contents (Elt Ideal))
    (hL : (dats m 0 c).arrAt 4 cfg0.N = L) :
    Pipeline.afterTail₀ cfgs (dats m) 0 (V0 m) [hostOps1] c main_v59
      = Cert.ReferenceIdeal.Layered.readout (F := Ideal) L (m ((c : Thread nD τ).loc main_arg2))
          (m ((c : Thread nD τ).loc main_arg9)) (m ((c : Thread nD τ).loc main_arg10)) (m ((c : Thread nD τ).loc main_arg11)) := by
  unfold Pipeline.afterTail₀
  show StableHlo.after hostOps1 _ (Proc.devRef .tc main_v59) = _
  after_results
  have e34 : Pipeline.withArrays (cfgs 0).spec c (V0 m c) (fun w => (dats m 0 c).arrAt w (cfgs 0).N)
      (Proc.devRef .tc main_v34) = L :=
    (Pipeline.withArrays_arr spec0 launch0.win.arr_inj c _ _ 4).trans hL
  have e2 : Pipeline.withArrays (cfgs 0).spec c (V0 m c) (fun w => (dats m 0 c).arrAt w (cfgs 0).N)
      (Proc.devRef .tc main_arg2) = (m ((c : Thread nD τ).loc main_arg2)) :=
    (Pipeline.withArrays_of_ne _ c (V0 m c) _ main_arg2
      (by exact (by decide : ∀ w, Pipeline.arrRef spec0 w ≠ main_arg2))).trans (V_main_arg2 m c)
  have e9 : Pipeline.withArrays (cfgs 0).spec c (V0 m c) (fun w => (dats m 0 c).arrAt w (cfgs 0).N)
      (Proc.devRef .tc main_arg9) = (m ((c : Thread nD τ).loc main_arg9)) :=
    (Pipeline.withArrays_of_ne _ c (V0 m c) _ main_arg9
      (by exact (by decide : ∀ w, Pipeline.arrRef spec0 w ≠ main_arg9))).trans (V_main_arg9 m c)
  have e10 : Pipeline.withArrays (cfgs 0).spec c (V0 m c) (fun w => (dats m 0 c).arrAt w (cfgs 0).N)
      (Proc.devRef .tc main_arg10) = (m ((c : Thread nD τ).loc main_arg10)) :=
    (Pipeline.withArrays_of_ne _ c (V0 m c) _ main_arg10
      (by exact (by decide : ∀ w, Pipeline.arrRef spec0 w ≠ main_arg10))).trans (V_main_arg10 m c)
  have e11 : Pipeline.withArrays (cfgs 0).spec c (V0 m c) (fun w => (dats m 0 c).arrAt w (cfgs 0).N)
      (Proc.devRef .tc main_arg11) = (m ((c : Thread nD τ).loc main_arg11)) :=
    (Pipeline.withArrays_of_ne _ c (V0 m c) _ main_arg11
      (by exact (by decide : ∀ w, Pipeline.arrRef spec0 w ≠ main_arg11))).trans (V_main_arg11 m c)
  rw [e34, e2, e9, e10, e11]
  rfl

end Cert.KernelIdeal.Layered

end
-- ==== Proof.KernelRun.lean ====
/-
  The kernel's run, read: its result is the reference's result function of the same arguments.

  The generated frame run leaves the region's output array at what the 25 write-backs made of it and every other
  buffer at what the host lines after the region computed.  The output array is the reference's layer of the
  arguments (the blocks tile it and each is the layer's block); the host tail is the reference's read-out; and the
  reference's result is the read-out of its layer.  Hence the kernel's result buffer ends at the reference's result
  function of the kernel's own arguments, which end unchanged.
-/
import proofs.«181477_j33526514713101_1_alg».proof.Proof.KernelLayer
import proofs.«181477_j33526514713101_1_alg».proof.Proof.KernelReadout

set_option maxRecDepth 16384

noncomputable section

namespace Cert.KernelIdeal.Layered

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The reference's result function of the arguments in the kernel's memory. -/
abbrev resultOf (c : Dev nD) : (⟨S64x16x512, .f32⟩ : BufTy).Contents (Elt Ideal) :=
  Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The result buffer after the whole program: the read-out of the layer, which is the reference's result. -/
theorem result_final (c : Dev nD) :
    Pipeline.afterTail₀ cfgs (dats m) 0 (V0 m) [hostOps1] c main_v59 = resultOf m c :=
  (tail_result m c (layerOf m c) (layer_final m c)).trans
    (Cert.ReferenceIdeal.Layered.result_eq_readout (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))).symm

/-- Every weakly fair execution of the kernel's program terminates with its result at the reference's result
    function of the arguments, the arguments unchanged. -/
theorem run : θ_run defs (onTc (τ := τ) (main (F := Ideal))) ⟨m, fun _ => 0, ρ⟩ fun r => ∀ c : Dev nD,
      r.2.mem ((c : Thread nD τ).loc main_v59) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨
      ((h c).2 main_v59 (Pipeline.mem_restRefs_of main_v59 (by decide) (by decide))).trans (result_final m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.KernelIdeal.Layered

end
-- ==== Proof.lean ====
/-
  A relational graph-convolution read-out, its dense layer on the matrix unit, against the plain array program.

  Both programs compute, from an entity table, a relation table, a global table, two weight matrices and integer
  index arrays: the node states H = entity[node_ids]; the messages H[src] + relation[edge_rel], summed at each edge's
  destination and divided by the clamped in-degree, A; the layer relu (A · Wm + H · Ws); and the read-out: the layer's
  rows at the target ids joined with the global table's rows at the global ids, zeroed past each sample's length.
  The gathers, the scatter-adds, the division and the read-out are spelt identically in the two programs.  They
  differ in the layer alone: the reference multiplies the 50000-row matrices whole on the host; the kernel walks 25
  blocks of 2000 rows, narrows each operand's float format (the identity at the ideal values), multiplies on the
  matrix unit into a zero accumulator, adds and clamps.  Entry (i, q) of either is
      max (Σ_k A(i,k)·Wm(k,q) + Σ_k H(i,k)·Ws(k,q)) 0
  over the extended reals — the same sums of the same products, so no finiteness of the inputs is used.

  The frames of the two kernel programs are the generated ones; the reference's frame is its generated run with the
  result dropped; the idealization rewrote nothing, so there is nothing to preserve; the algebraic claim sets the
  kernel's run (Proof/KernelRun.lean) beside the reference's generated run.
-/
import proofs.«181477_j33526514713101_1_alg».proof.Defs
import proofs.«181477_j33526514713101_1_alg».proof.Proof.Gen.Kernel
import proofs.«181477_j33526514713101_1_alg».proof.Proof.Gen.Kernel.Skeleton
import proofs.«181477_j33526514713101_1_alg».proof.Proof.Gen.Kernel.Launch
import proofs.«181477_j33526514713101_1_alg».proof.Proof.Gen.Kernel.Points
import proofs.«181477_j33526514713101_1_alg».proof.Proof.Gen.Kernel.Frame
import proofs.«181477_j33526514713101_1_alg».proof.Proof.Gen.KernelIdeal
import proofs.«181477_j33526514713101_1_alg».proof.Proof.Gen.KernelIdeal.Skeleton
import proofs.«181477_j33526514713101_1_alg».proof.Proof.Gen.KernelIdeal.Launch
import proofs.«181477_j33526514713101_1_alg».proof.Proof.Gen.KernelIdeal.Points
import proofs.«181477_j33526514713101_1_alg».proof.Proof.Gen.KernelIdeal.Frame
import proofs.«181477_j33526514713101_1_alg».proof.Proof.Gen.ReferenceIdeal
import proofs.«181477_j33526514713101_1_alg».proof.Proof.Gen.ReferenceIdeal.Run
import proofs.«181477_j33526514713101_1_alg».proof.Proof.Gen.ReferenceIdeal.Read
import proofs.«181477_j33526514713101_1_alg».proof.Proof.Gen.Pre_finite_inputs
import proofs.«181477_j33526514713101_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference is a straight line of host operations: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at the reference's result function of those
    arguments: the kernel by its run read through the layer and the read-out, the reference by its generated run. -/
theorem algebraic : Cert.algebraic_KernelIdeal_ReferenceIdeal := by
  intro m ρ m' ρ' _ hagree
  refine ⟨fun c => Cert.KernelIdeal.Layered.resultOf m c, Cert.KernelIdeal.Layered.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v62_eq, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
